-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S128x256 : Shape := ⟨2, ![128, 256]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : IVec S8192x8192 1) (main_arg3 : FVec F S128x256 .f32) (main_arg4 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S128x256 : Shape := ⟨2, ![128, 256]⟩
abbrev S128 : Shape := ⟨1, ![128]⟩
abbrev S1x128 : Shape := ⟨2, ![1, 128]⟩
abbrev S8192x128 : Shape := ⟨2, ![8192, 128]⟩
abbrev S1024x256 : Shape := ⟨2, ![1024, 256]⟩
abbrev S1024x128 : Shape := ⟨2, ![1024, 128]⟩
abbrev S256x128 : Shape := ⟨2, ![256, 128]⟩
abbrev S2048x1024 : Shape := ⟨2, ![2048, 1024]⟩
abbrev S2048x128 : Shape := ⟨2, ![2048, 128]⟩

abbrev nBuf : Space → Nat
  | .hbm => 9
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .i1⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S8192x128, .bf16⟩
  | .hbm, ⟨7, _⟩ => ⟨S8192x8192, .i32⟩
  | .hbm, ⟨8, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S128x256, .f32⟩
  | .local _ .vmem, ⟨3, _⟩ => ⟨S1x128, .f32⟩
  | .local _ .vmem, ⟨4, _⟩ => ⟨S1024x128, .bf16⟩
  | .local _ .vmem, ⟨5, _⟩ => ⟨S1024x128, .bf16⟩
  | .local _ .vmem, ⟨6, _⟩ => ⟨S2048x1024, .f32⟩
  | .local _ .vmem, ⟨7, _⟩ => ⟨S2048x1024, .f32⟩
  | .local _ .vmem, ⟨8, _⟩ => ⟨S2048x1024, .i32⟩
  | .local _ .vmem, ⟨9, _⟩ => ⟨S2048x1024, .i32⟩
  | .local _ .vmem, ⟨10, _⟩ => ⟨S1024x128, .bf16⟩
  | .local _ .vmem, ⟨11, _⟩ => ⟨S1024x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  natLt_1_32 : 1 < 32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  shapeCasts_S1024x128_S1024x128 : S1024x128.ShapeCasts S1024x128
  dot_S1024x256_S256x128_S1024x128_1_0_0_1_n_n_wf : DotDims.WF S1024x256 S256x128 S1024x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x8192.size a
  hwx1_1 : ∀ i : grid1.Coords, EltTy.bits .i32 = 32 ∨ (Rect.block (s := S8192x8192) S2048x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .bf16 = 32 ∨ (Rect.block (s := S8192x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S128x256 : Shape := ⟨2, ![128, 256]⟩
abbrev S128 : Shape := ⟨1, ![128]⟩
abbrev S_ : Shape := ⟨0, ![]⟩
abbrev S256x128 : Shape := ⟨2, ![256, 128]⟩
abbrev S8192x128 : Shape := ⟨2, ![8192, 128]⟩
abbrev S1x128 : Shape := ⟨2, ![1, 128]⟩

abbrev nBuf : Space → Nat
  | .hbm => 15
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .i1⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S256x128, .f32⟩
  | .hbm, ⟨10, _⟩ => ⟨S8192x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Reg0.lean ====
/-
  The first kernel region (the projection kernel) on one core, at a parameter `V`: the buffer contents the region is
  entered from. Each grid point `t` reads row block `t` of the first operand and the whole second and third operands,
  and leaves in the output window's buffer the body's one store over those blocks. Stated here: each window's block at a
  point, that an input's buffer holds its block whether or not the pipeline fetched it at that point, the body's
  triple, the per-point data and the per-point obligation.
-/
import proofs.«124004_j23862838297387_1_alg».proof.Proof.Gen.Kernel.Launch
import proofs.«124004_j23862838297387_1_alg».proof.Proof.Gen.Kernel.Skeleton
import proofs.«124004_j23862838297387_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    the block index has not moved since the previous point and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1024x256 := Rect.unit (s := S1024x256) ![0, 0] S1024x256.size inb_S1024x256_S1024x256_0_0
abbrev r0_1 : Rect S128x256 := Rect.unit (s := S128x256) ![0, 0] S128x256.size inb_S128x256_S128x256_0_0
abbrev r0_2 : Rect S1x128 := Rect.unit (s := S1x128) ![0, 0] S1x128.size inb_S1x128_S1x128_0_0
abbrev r0_3 : Rect S1024x128 := Rect.unit (s := S1024x128) ![0, 0] S1024x128.size inb_S1024x128_S1024x128_0_0

/-- The output window's buffer after the body, from the three input blocks: its one store, read back. -/
def out0_3 (x0 : Vec F S1024x256 .f32) (x1 : Vec F S128x256 .f32) (x2 : Vec F S1x128 .f32) : Vec F S1024x128 .bf16 :=
  View.canon [⟨r0_3, k0_pay1 (View.ld x0 r0_0) (View.ld x1 r0_1) (View.ld x2 r0_2)⟩]

/-- The one store covers the buffer. -/
theorem cover0_3 (p0 : Vec F S1024x128 .bf16) (y : S1024x128.Idx) :
    ∃ pc ∈ ([⟨r0_3, p0⟩] : List (View.Piece (Elt F) S1024x128 .bf16)), y ∈ pc.1.set :=
  View.cover_of_tiled [⟨r0_3, p0⟩] S1024x128.size (by rfl) y

set_option maxHeartbeats 1000000 in
/-- The body on whole buffers: the inputs' at contents `x0 x1 x2`, the output's at anything; it returns with the inputs'
    as they were and the output's at `out0_3 x0 x1 x2`. -/
theorem sound_kernel0 (c : Dev nD) (E : Set ℕ) (i : grid0.Coords) (arg1 : Memref sig .tc .vmem S1024x256 .f32) (harg1 : arg1.IsWhole)
    (arg2 : Memref sig .tc .vmem S128x256 .f32) (harg2 : arg2.IsWhole) (arg3 : Memref sig .tc .vmem S1x128 .f32) (harg3 : arg3.IsWhole)
    (arg4 : Memref sig .tc .vmem S1024x128 .bf16) (harg4 : arg4.IsWhole)
    (x0 : Vec F S1024x256 .f32) (x1 : Vec F S128x256 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__h_kernel i arg1 harg1 arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The per-point data of the region on core `c`: the arrays as the region finds them; after the body at point `t` each
    input's buffer at its block and the output's at `out0_3` of the input blocks; the scratch-and-generator invariant,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.K.Reg1Runs.lean ====
/-
  The second kernel region (the masked product, accumulated over the reduction axis of its grid) on one core, at a
  parameter `V`: what its three cases share. The grid is 4 row tiles by 8 reduction tiles, the reduction tile moving
  fastest; the body resets its scratch accumulator at the first reduction tile, adds the tile's product at every
  point, and copies the accumulator into the output window at the last reduction tile, where the pipeline writes the
  window back; at the other points the output window is idle. Stated here: each window's block at a point, the inputs'
  buffers at their blocks, the two branch conditions in closed form over the grid, where the output window is idle, and
  the names of the buffers the cases are stated over.
-/
import proofs.«124004_j23862838297387_1_alg».proof.Proof.Gen.Kernel.Launch
import proofs.«124004_j23862838297387_1_alg».proof.Proof.Gen.Kernel.Skeleton
import proofs.«124004_j23862838297387_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The condition of the body's first branch (reset the accumulator), from the grid coordinates. -/
abbrev cond1_0 (i : grid1.Coords) : Prop := (Scalar.cmpi .ne (Scalar.extui (Scalar.cmpi .eq (BitVec.ofNat 32 (i 1).val) 0#32)) 0#32) = 1#1
/-- It holds exactly at the first reduction tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second branch (copy the accumulator out), from the grid coordinates. -/
abbrev cond1_1 (i : grid1.Coords) : Prop := k1_cond2 i = 1#1
/-- It holds exactly at the last reduction tile. -/
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last reduction tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last reduction tile it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S2048x128 .f32 := (Memref.whole cc1_stg3_0 : Memref sig .tc .vmem S2048x128 .f32).view
/-- Each window's current staging memref at point `t`, as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S2048x128 .f32 := Memref.whole cc1_scratch0
abbrev VS1_0 : View sig .tc .vmem S2048x128 .f32 := scM1_0.view

/-- The scoped buffers of the other region (its six staging buffers), each whole at some contents, beside `S`. -/
def restS1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- `S` taken out from beside the other region's buffers, -/
theorem restS1_out (c : Dev nD) (S : sProp 𝕄) : restS1 c S ⊢ iprop(restS1 (F := F) c iprop(emp) ∗ S) := by
  unfold restS1
  iintro ⟨Ha, Hb, Hc, Hd, He, Hf, HS⟩
  isplitr [HS]
  · isplitl [Ha]; · iexact Ha
    isplitl [Hb]; · iexact Hb
    isplitl [Hc]; · iexact Hc
    isplitl [Hd]; · iexact Hd
    isplitl [He]; · iexact He
    isplitl [Hf]; · iexact Hf
    iempintro
  iexact HS

/-- and put back. -/
theorem restS1_in (c : Dev nD) (S : sProp 𝕄) : iprop(restS1 (F := F) c iprop(emp) ∗ S) ⊢ restS1 c S := by
  unfold restS1
  iintro ⟨⟨Ha, Hb, Hc, Hd, He, Hf, -⟩, HS⟩
  isplitl [Ha]; · iexact Ha
  isplitl [Hb]; · iexact Hb
  isplitl [Hc]; · iexact Hc
  isplitl [Hd]; · iexact Hd
  isplitl [He]; · iexact He
  isplitl [Hf]; · iexact Hf
  iexact HS

/-- The region's scratch-and-generator invariant with the accumulator split off as an owned memref. -/
theorem PhiA1_eq (c : Dev nD) :
    (Pipeline.ΦA spec1 c : sProp 𝕄)
      = iprop(restS1 c iprop(∃ d, owns (c : Thread nD τ) scM1_0 fullShare d) ∗ (∃ r, prngReg c r)) := by
  unfold Pipeline.ΦA restS1; rw [scopedRest1_eq]; simp only [scM1_0, owns_whole]; try rfl

end Cert.Kernel.Frame

end
-- ==== Proof.K.Reg1A.lean ====
/-
  The second kernel's body, run whole on any staging memrefs, in the case of the first reduction tile: the accumulator is reset, the tile's product added, nothing copied out.
  The pieces its stores leave in the output window's buffer and in the scratch accumulator are found by running the body.
-/
import proofs.«124004_j23862838297387_1_alg».proof.Proof.K.Reg1Runs

set_option maxRecDepth 16384

noncomputable section

namespace Cert.Kernel.Frame

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first reduction tile: the inputs' buffers at `x0 x1 x2`, the idle output's at `xi3` handed back untouched, the
    accumulator at anything; the body returns with the accumulator at its pieces written. -/
noncomputable def kernelRun1_A (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.K.Reg1B.lean ====
/-
  The second kernel's body, run whole on any staging memrefs, in the case of a middle reduction tile: the tile's product is added to the accumulator, nothing copied out.
  The pieces its stores leave in the output window's buffer and in the scratch accumulator are found by running the body.
-/
import proofs.«124004_j23862838297387_1_alg».proof.Proof.K.Reg1Runs

set_option maxRecDepth 16384

noncomputable section

namespace Cert.Kernel.Frame

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle reduction tile: the inputs' buffers at `x0 x1 x2`, the idle output's at `xi3` handed back untouched, the
    accumulator at `xs0`; the body returns with the accumulator at its pieces written. -/
noncomputable def kernelRun1_B (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.K.Reg1C.lean ====
/-
  The second kernel's body, run whole on any staging memrefs, in the case of the last reduction tile: the tile's product is added to the accumulator, and the accumulator copied into the output window.
  The pieces its stores leave in the output window's buffer and in the scratch accumulator are found by running the body.
-/
import proofs.«124004_j23862838297387_1_alg».proof.Proof.K.Reg1Runs

set_option maxRecDepth 16384

noncomputable section

namespace Cert.Kernel.Frame

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last reduction tile: the inputs' buffers at `x0 x1 x2`, the output's at anything, the accumulator at `xs0`; the
    body returns with the output's buffer and the accumulator at their pieces written. -/
noncomputable def kernelRun1_C (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.K.Reg1.lean ====
/-
  The second kernel region on one core, at a parameter `V`: what the output window's buffer and the scratch accumulator
  hold after each grid point, by recursion on the point (the accumulator restarts at each first reduction tile and
  otherwise continues from what the point before left), the region's invariant carrying the accumulator at those
  contents from point to point, the per-point data, and the per-point obligation by cases on the reduction tile.
-/
import proofs.«124004_j23862838297387_1_alg».proof.Proof.K.Reg1A
import proofs.«124004_j23862838297387_1_alg».proof.Proof.K.Reg1B
import proofs.«124004_j23862838297387_1_alg».proof.Proof.K.Reg1C

set_option maxRecDepth 16384

noncomputable section

namespace Cert.Kernel.Frame

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the case leaves in the output window's buffer: its pieces read back (none: the window is idle there, and nothing consults this). -/
def out1_A_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- The pieces the case leaves in the accumulator tile it, so they cover it. -/
theorem scover1_A_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What the case leaves in the accumulator: its pieces read back. -/
def sout1_A_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)

/-- What the case leaves in the output window's buffer: its pieces read back (none: the window is idle there, and nothing consults this). -/
def out1_B_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The pieces the case leaves in the accumulator tile it, so they cover it. -/
theorem scover1_B_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y

/-- What the case leaves in the accumulator: its pieces read back. -/
def sout1_B_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The pieces the case leaves in the output window's buffer tile it, so they cover it. -/
theorem cover1_C_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What the case leaves in the output window's buffer: its pieces read back. -/
def out1_C_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- The pieces the case leaves in the accumulator tile it, so they cover it. -/
theorem scover1_C_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

/-- What the case leaves in the accumulator: its pieces read back. -/
def sout1_C_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1
variable (V : (c : Dev nD) → (b : Ref sig .tc) → Buf (Elt F) ((c : Thread nD τ).loc b))

/-- THE ACCUMULATION. What the output window's buffer and the scratch accumulator hold after the body at position `n`: the
    case the closed forms select at `n`, run at the point's memrefs and input blocks, the accumulator it reads at what
    this leaves at `n - 1`. -/
def outsAt1 (c : Dev nD) : (n : ℕ) → n < cfg1.N → Vec F S2048x128 .f32 × Vec F S2048x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first reduction tile. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle reduction tile: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last reduction tile: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer the region does not stage at
    anything; afterwards the accumulator at what the point before left in it, the other region's buffers at anything,
    and the generator register at some state. -/
def PhiS (c : Dev nD) : (n : ℕ) → n ≤ cfg1.N → sProp 𝕄
  | 0, _ => Pipeline.ΦA spec1 c
  | n + 1, hn => iprop(restS1 c iprop(owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restS1 c iprop(owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restS1 c iprop(owns (c : Thread nD τ) scM1_0 fullShare ((outsAt1 V c (n - 1) (by omega)).2)) ∗ (∃ r, prngReg c r)) := by
  cases n with
  | zero => exact absurd rfl hz
  | succ n => rfl

/-- The per-point data of the region on core `c`: the arrays as the region finds them; after the body at point `t` each
    input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_A c _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_A c _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_C c _ _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_B c _ _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The per-point obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the plain scratch-and-generator invariant back: the accumulator's
    named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HR, Hg⟩
  ihave HR' := (restS1_out c _) $$ HR
  icases HR' with ⟨HR, HS0⟩
  isplitl [HR HS0]
  · iapply (restS1_in c _)
    isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Frame

end
-- ==== Proof.K.Run.lean ====
/-
  The whole run of the program on every core: the buffer contents at each boundary between its four items (a host
  reshape, the projection region, a host conversion of the mask, the masked-product region) as a fold from the launch
  memory; each region as a segment entered from the contents before it and left at the contents after it, its arrays at
  what its pipeline's write-backs leave; and the run itself: every weakly fair execution terminates, nothing faulting,
  with every unscoped buffer at the last boundary's contents. The argument arrays walk back through the fold to their
  launch contents, which is the frame.
-/
import proofs.«124004_j23862838297387_1_alg».proof.Proof.K.Reg0
import proofs.«124004_j23862838297387_1_alg».proof.Proof.K.Reg1

set_option maxRecDepth 16384

noncomputable section

namespace Cert.Kernel.Frame

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host conversion of the mask (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The host reshape writes only its own result buffer. -/
theorem W1_keep (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- The host conversion writes only its own result buffer. -/
theorem W3_keep (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_keep m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

/-! ## The proof data family and the thread state -/

abbrev adm : (p : Fin 2) → (pcfgs (F := F) p).Adm := fun p => (cfgs p).toPCfg_adm
/-- Every pipeline's per-point data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every final state has the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Frame

end
-- ==== Proof.KI.Reg0.lean ====
/-
  The first kernel region (the projection kernel) on one core, at a parameter `V`: the buffer contents the region is
  entered from. Each grid point `t` reads row block `t` of the first operand and the whole second and third operands,
  and leaves in the output window's buffer the body's one store over those blocks. Stated here: each window's block at a
  point, that an input's buffer holds its block whether or not the pipeline fetched it at that point, the body's
  triple, the per-point data and the per-point obligation.
-/
import proofs.«124004_j23862838297387_1_alg».proof.Proof.Gen.KernelIdeal.Launch
import proofs.«124004_j23862838297387_1_alg».proof.Proof.Gen.KernelIdeal.Skeleton
import proofs.«124004_j23862838297387_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    the block index has not moved since the previous point and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1024x256 := Rect.unit (s := S1024x256) ![0, 0] S1024x256.size inb_S1024x256_S1024x256_0_0
abbrev r0_1 : Rect S128x256 := Rect.unit (s := S128x256) ![0, 0] S128x256.size inb_S128x256_S128x256_0_0
abbrev r0_2 : Rect S1x128 := Rect.unit (s := S1x128) ![0, 0] S1x128.size inb_S1x128_S1x128_0_0
abbrev r0_3 : Rect S1024x128 := Rect.unit (s := S1024x128) ![0, 0] S1024x128.size inb_S1024x128_S1024x128_0_0

/-- The output window's buffer after the body, from the three input blocks: its one store, read back. -/
def out0_3 (x0 : Vec F S1024x256 .f32) (x1 : Vec F S128x256 .f32) (x2 : Vec F S1x128 .f32) : Vec F S1024x128 .bf16 :=
  View.canon [⟨r0_3, k0_pay1 (View.ld x0 r0_0) (View.ld x1 r0_1) (View.ld x2 r0_2)⟩]

/-- The one store covers the buffer. -/
theorem cover0_3 (p0 : Vec F S1024x128 .bf16) (y : S1024x128.Idx) :
    ∃ pc ∈ ([⟨r0_3, p0⟩] : List (View.Piece (Elt F) S1024x128 .bf16)), y ∈ pc.1.set :=
  View.cover_of_tiled [⟨r0_3, p0⟩] S1024x128.size (by rfl) y

set_option maxHeartbeats 1000000 in
/-- The body on whole buffers: the inputs' at contents `x0 x1 x2`, the output's at anything; it returns with the inputs'
    as they were and the output's at `out0_3 x0 x1 x2`. -/
theorem sound_kernel0 (c : Dev nD) (E : Set ℕ) (i : grid0.Coords) (arg1 : Memref sig .tc .vmem S1024x256 .f32) (harg1 : arg1.IsWhole)
    (arg2 : Memref sig .tc .vmem S128x256 .f32) (harg2 : arg2.IsWhole) (arg3 : Memref sig .tc .vmem S1x128 .f32) (harg3 : arg3.IsWhole)
    (arg4 : Memref sig .tc .vmem S1024x128 .bf16) (harg4 : arg4.IsWhole)
    (x0 : Vec F S1024x256 .f32) (x1 : Vec F S128x256 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__h_kernel i arg1 harg1 arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The per-point data of the region on core `c`: the arrays as the region finds them; after the body at point `t` each
    input's buffer at its block and the output's at `out0_3` of the input blocks; the scratch-and-generator invariant,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.KI.Reg1Runs.lean ====
/-
  The second kernel region (the masked product, accumulated over the reduction axis of its grid) on one core, at a
  parameter `V`: what its three cases share. The grid is 4 row tiles by 8 reduction tiles, the reduction tile moving
  fastest; the body resets its scratch accumulator at the first reduction tile, adds the tile's product at every
  point, and copies the accumulator into the output window at the last reduction tile, where the pipeline writes the
  window back; at the other points the output window is idle. Stated here: each window's block at a point, the inputs'
  buffers at their blocks, the two branch conditions in closed form over the grid, where the output window is idle, and
  the names of the buffers the cases are stated over.
-/
import proofs.«124004_j23862838297387_1_alg».proof.Proof.Gen.KernelIdeal.Launch
import proofs.«124004_j23862838297387_1_alg».proof.Proof.Gen.KernelIdeal.Skeleton
import proofs.«124004_j23862838297387_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The condition of the body's first branch (reset the accumulator), from the grid coordinates. -/
abbrev cond1_0 (i : grid1.Coords) : Prop := (Scalar.cmpi .ne (Scalar.extui (Scalar.cmpi .eq (BitVec.ofNat 32 (i 1).val) 0#32)) 0#32) = 1#1
/-- It holds exactly at the first reduction tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second branch (copy the accumulator out), from the grid coordinates. -/
abbrev cond1_1 (i : grid1.Coords) : Prop := k1_cond2 i = 1#1
/-- It holds exactly at the last reduction tile. -/
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last reduction tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last reduction tile it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S2048x128 .f32 := (Memref.whole cc1_stg3_0 : Memref sig .tc .vmem S2048x128 .f32).view
/-- Each window's current staging memref at point `t`, as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S2048x128 .f32 := Memref.whole cc1_scratch0
abbrev VS1_0 : View sig .tc .vmem S2048x128 .f32 := scM1_0.view

/-- The scoped buffers of the other region (its six staging buffers), each whole at some contents, beside `S`. -/
def restS1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- `S` taken out from beside the other region's buffers, -/
theorem restS1_out (c : Dev nD) (S : sProp 𝕄) : restS1 c S ⊢ iprop(restS1 (F := F) c iprop(emp) ∗ S) := by
  unfold restS1
  iintro ⟨Ha, Hb, Hc, Hd, He, Hf, HS⟩
  isplitr [HS]
  · isplitl [Ha]; · iexact Ha
    isplitl [Hb]; · iexact Hb
    isplitl [Hc]; · iexact Hc
    isplitl [Hd]; · iexact Hd
    isplitl [He]; · iexact He
    isplitl [Hf]; · iexact Hf
    iempintro
  iexact HS

/-- and put back. -/
theorem restS1_in (c : Dev nD) (S : sProp 𝕄) : iprop(restS1 (F := F) c iprop(emp) ∗ S) ⊢ restS1 c S := by
  unfold restS1
  iintro ⟨⟨Ha, Hb, Hc, Hd, He, Hf, -⟩, HS⟩
  isplitl [Ha]; · iexact Ha
  isplitl [Hb]; · iexact Hb
  isplitl [Hc]; · iexact Hc
  isplitl [Hd]; · iexact Hd
  isplitl [He]; · iexact He
  isplitl [Hf]; · iexact Hf
  iexact HS

/-- The region's scratch-and-generator invariant with the accumulator split off as an owned memref. -/
theorem PhiA1_eq (c : Dev nD) :
    (Pipeline.ΦA spec1 c : sProp 𝕄)
      = iprop(restS1 c iprop(∃ d, owns (c : Thread nD τ) scM1_0 fullShare d) ∗ (∃ r, prngReg c r)) := by
  unfold Pipeline.ΦA restS1; rw [scopedRest1_eq]; simp only [scM1_0, owns_whole]; try rfl

end Cert.KernelIdeal.Frame

end
-- ==== Proof.KI.Reg1A.lean ====
/-
  The second kernel's body, run whole on any staging memrefs, in the case of the first reduction tile: the accumulator is reset, the tile's product added, nothing copied out.
  The pieces its stores leave in the output window's buffer and in the scratch accumulator are found by running the body.
-/
import proofs.«124004_j23862838297387_1_alg».proof.Proof.KI.Reg1Runs

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first reduction tile: the inputs' buffers at `x0 x1 x2`, the idle output's at `xi3` handed back untouched, the
    accumulator at anything; the body returns with the accumulator at its pieces written. -/
noncomputable def kernelRun1_A (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KI.Reg1B.lean ====
/-
  The second kernel's body, run whole on any staging memrefs, in the case of a middle reduction tile: the tile's product is added to the accumulator, nothing copied out.
  The pieces its stores leave in the output window's buffer and in the scratch accumulator are found by running the body.
-/
import proofs.«124004_j23862838297387_1_alg».proof.Proof.KI.Reg1Runs

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle reduction tile: the inputs' buffers at `x0 x1 x2`, the idle output's at `xi3` handed back untouched, the
    accumulator at `xs0`; the body returns with the accumulator at its pieces written. -/
noncomputable def kernelRun1_B (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KI.Reg1C.lean ====
/-
  The second kernel's body, run whole on any staging memrefs, in the case of the last reduction tile: the tile's product is added to the accumulator, and the accumulator copied into the output window.
  The pieces its stores leave in the output window's buffer and in the scratch accumulator are found by running the body.
-/
import proofs.«124004_j23862838297387_1_alg».proof.Proof.KI.Reg1Runs

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last reduction tile: the inputs' buffers at `x0 x1 x2`, the output's at anything, the accumulator at `xs0`; the
    body returns with the output's buffer and the accumulator at their pieces written. -/
noncomputable def kernelRun1_C (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.KI.Reg1.lean ====
/-
  The second kernel region on one core, at a parameter `V`: what the output window's buffer and the scratch accumulator
  hold after each grid point, by recursion on the point (the accumulator restarts at each first reduction tile and
  otherwise continues from what the point before left), the region's invariant carrying the accumulator at those
  contents from point to point, the per-point data, and the per-point obligation by cases on the reduction tile.
-/
import proofs.«124004_j23862838297387_1_alg».proof.Proof.KI.Reg1A
import proofs.«124004_j23862838297387_1_alg».proof.Proof.KI.Reg1B
import proofs.«124004_j23862838297387_1_alg».proof.Proof.KI.Reg1C

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the case leaves in the output window's buffer: its pieces read back (none: the window is idle there, and nothing consults this). -/
def out1_A_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- The pieces the case leaves in the accumulator tile it, so they cover it. -/
theorem scover1_A_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What the case leaves in the accumulator: its pieces read back. -/
def sout1_A_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)

/-- What the case leaves in the output window's buffer: its pieces read back (none: the window is idle there, and nothing consults this). -/
def out1_B_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The pieces the case leaves in the accumulator tile it, so they cover it. -/
theorem scover1_B_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y

/-- What the case leaves in the accumulator: its pieces read back. -/
def sout1_B_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The pieces the case leaves in the output window's buffer tile it, so they cover it. -/
theorem cover1_C_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What the case leaves in the output window's buffer: its pieces read back. -/
def out1_C_3 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- The pieces the case leaves in the accumulator tile it, so they cover it. -/
theorem scover1_C_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

/-- What the case leaves in the accumulator: its pieces read back. -/
def sout1_C_0 (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1
variable (V : (c : Dev nD) → (b : Ref sig .tc) → Buf (Elt F) ((c : Thread nD τ).loc b))

/-- THE ACCUMULATION. What the output window's buffer and the scratch accumulator hold after the body at position `n`: the
    case the closed forms select at `n`, run at the point's memrefs and input blocks, the accumulator it reads at what
    this leaves at `n - 1`. -/
def outsAt1 (c : Dev nD) : (n : ℕ) → n < cfg1.N → Vec F S2048x128 .f32 × Vec F S2048x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first reduction tile. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle reduction tile: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last reduction tile: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer the region does not stage at
    anything; afterwards the accumulator at what the point before left in it, the other region's buffers at anything,
    and the generator register at some state. -/
def PhiS (c : Dev nD) : (n : ℕ) → n ≤ cfg1.N → sProp 𝕄
  | 0, _ => Pipeline.ΦA spec1 c
  | n + 1, hn => iprop(restS1 c iprop(owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restS1 c iprop(owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restS1 c iprop(owns (c : Thread nD τ) scM1_0 fullShare ((outsAt1 V c (n - 1) (by omega)).2)) ∗ (∃ r, prngReg c r)) := by
  cases n with
  | zero => exact absurd rfl hz
  | succ n => rfl

/-- The per-point data of the region on core `c`: the arrays as the region finds them; after the body at point `t` each
    input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_A c _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_A c _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_C c _ _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HR, Hg⟩, Ho, ⟨%d0, H0⟩, ⟨%d1, H1⟩, ⟨%d2, H2⟩, ⟨%d3, H3⟩⟩
        ihave HR' := (restS1_out c _) $$ HR
        icases HR' with ⟨HR, HS0⟩
        iapply ((kernelRun1_B c _ _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · iapply (restS1_in c _)
            isplitl [HR]; · iexact HR
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The per-point obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the plain scratch-and-generator invariant back: the accumulator's
    named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HR, Hg⟩
  ihave HR' := (restS1_out c _) $$ HR
  icases HR' with ⟨HR, HS0⟩
  isplitl [HR HS0]
  · iapply (restS1_in c _)
    isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Frame

end
-- ==== Proof.KI.Pieces.lean ====
/-
  What each case of the two kernel bodies leaves in a buffer, as the body's arithmetic over the blocks it loads. Every
  load and store goes through the whole-buffer rectangle at zero offsets, so a load reads the buffer's contents and the
  last covering store leaves its payload; a load of the accumulator after a covering store reads that store's payload.
-/
import proofs.«124004_j23862838297387_1_alg».proof.Proof.KI.Reg0
import proofs.«124004_j23862838297387_1_alg».proof.Proof.KI.Reg1
import Idealize.ShloMosaic.Lib.Pipeline.Value

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles' offsets are zero. -/
theorem hz2 : (![0, 0] : Fin 2 → Nat) = fun _ => 0 := funext fun a => by fin_cases a <;> rfl

/-- The first region's output block: its one covering store's payload over the loaded blocks, which are the buffers' contents. -/
theorem out0_3_eq (x0 : Vec F S1024x256 .f32) (x1 : Vec F S128x256 .f32) (x2 : Vec F S1x128 .f32) :
    out0_3 x0 x1 x2 = k0_pay1 x0 x1 x2 := by
  unfold out0_3
  rw [View.canon_unit_zero hz2]
  simp only [View.ld_unit_zero (S := S1024x256) hz2, View.ld_unit_zero (S := S128x256) hz2, View.ld_unit_zero (S := S1x128) hz2]

/-- At a first reduction tile the accumulator is first set to the initial block, read back, and left at the update of that. -/
theorem sout1_A_0_eq (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1024 .f32) (x1 : Vec F S2048x1024 .i32) (x2 : Vec F S1024x128 .bf16) :
    sout1_A_0 c i arg2 harg2 arg3 harg3 arg4 harg4 arg5 harg5 arg6 harg6 hc0 hc1 x0 x1 x2 = k1_pay2 x0 x1 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x128) hz2, View.readCov_unit_zero (S := S2048x128) _ hz2]
  simp only [View.readAt_eq_ld, harg2.read_unread, harg3.read_unread, harg4.read_unread,
    View.ld_unit_zero (S := S2048x1024) hz2, View.ld_unit_zero (S := S1024x128) hz2]

/-- At a middle reduction tile the accumulator is left at the update of what it held. -/
theorem sout1_B_0_eq (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1024 .f32) (x1 : Vec F S2048x1024 .i32) (x2 : Vec F S1024x128 .bf16) (xs0 : Vec F S2048x128 .f32) :
    sout1_B_0 c i arg2 harg2 arg3 harg3 arg4 harg4 arg5 harg5 arg6 harg6 hc0 hc1 x0 x1 x2 xs0 = k1_pay2 x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero hz2]
  simp only [View.readAt_eq_ld, harg2.read_unread, harg3.read_unread, harg4.read_unread, harg6.read_unread,
    View.ld_unit_zero (S := S2048x1024) hz2, View.ld_unit_zero (S := S1024x128) hz2, View.ld_unit_zero (S := S2048x128) hz2]

/-- At a last reduction tile likewise, -/
theorem sout1_C_0_eq (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) :
    sout1_C_0 c i arg2 harg2 arg3 harg3 arg4 harg4 arg5 harg5 arg6 harg6 hc0 hc1 x0 x1 x2 xs0 = k1_pay2 x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread,
    View.ld_unit_zero (S := S2048x1024) hz2, View.ld_unit_zero (S := S1024x128) hz2, View.ld_unit_zero (S := S2048x128) hz2]

/-- and the output window's buffer receives the accumulator read back after that store. -/
theorem out1_C_3_eq (c : Dev nD) (i : grid1.Coords) (arg2 : Memref sig .tc .vmem S2048x1024 .f32) (harg2 : arg2.IsWhole) (arg3 : Memref sig .tc .vmem S2048x1024 .i32) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1024 .f32) (x1 : Vec F S2048x1024 .i32) (x2 : Vec F S1024x128 .bf16) (xs0 : Vec F S2048x128 .f32) :
    out1_C_3 c i arg2 harg2 arg3 harg3 arg4 harg4 arg5 harg5 arg6 harg6 hc0 hc1 x0 x1 x2 xs0 = k1_pay2 x0 x1 x2 xs0 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz2, View.readCov_unit_zero (S := S2048x128) _ hz2]
  simp only [View.readAt_eq_ld, harg2.read_unread, harg3.read_unread, harg4.read_unread, harg6.read_unread,
    View.ld_unit_zero (S := S2048x1024) hz2, View.ld_unit_zero (S := S1024x128) hz2, View.ld_unit_zero (S := S2048x128) hz2]

end Cert.KernelIdeal.Frame

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Pay.lean ====
import proofs.«124004_j23862838297387_1_alg».proof.Proof.Gen.KernelIdeal.Skeleton
import proofs.«124004_j23862838297387_1_alg».proof.Proof.LibDot
import Idealize.ShloMosaic.Lib.ValueIdx
import Idealize.ShloMosaic.Lib.Pipeline.Value
import Idealize.ShloMosaic.Lib.ValueLayout
import Idealize.ShloMosaic.PureOps.Ideal.Laws

/-
  The kernel bodies' arithmetic, read at an entry, at the ideal values.

  The first body's stored block is, at row `p`, column `j`, the projection `(∑ l, x(p, l) · W(j, l)) + b(j)`: the format
  changes are the identity on extended reals, the transposed weight read at `(l, j)` is the weight at `(j, l)`, the
  matrix product accumulates into zero, and the one bias row is read at every row.
  The second body's initial block is zero everywhere, and its update adds to the running block, at `(p, j)`, the sum
  over `kk` of the selected entry (zero where the mask word is not zero, the matrix entry elsewhere) times the projected
  block's entry at `(kk, j)`.
-/

noncomputable section

namespace Cert.KernelIdeal.Pay

open Idealize.ShloMosaic Idealize.ShloMosaic.ValueIdx Cert.KernelIdeal Cert.KernelIdeal.Gen
open scoped BigOperators

/-- The first body's product contracts axis 1 of `[1024, 256]` with axis 0 of `[256, 128]`. -/
theorem plain0 : Cert.LibDot.Plain dot_S1024x256_S256x128_S1024x128_1_0_0_1_n_n where
  hrank := rfl
  hs := rfl
  hl0 := fun j k => by
    unfold DotDims.lhsIdx
    rw [dif_neg (show ¬(0 : Fin S1024x256.rank) ∈ dot_S1024x256_S256x128_S1024x128_1_0_0_1_n_n.lhsBatch by decide),
      dif_pos (show (0 : Fin S1024x256.rank) ∈ dot_S1024x256_S256x128_S1024x128_1_0_0_1_n_n.lhsNonContracting by decide)]
    rfl
  hl1 := fun j k => dot_S1024x256_S256x128_S1024x128_1_0_0_1_n_n.lhsIdx_val_of_single rfl j k
  hr0 := fun j k => dot_S1024x256_S256x128_S1024x128_1_0_0_1_n_n.rhsIdx_val_of_single rfl j k
  hr1 := fun j k => by
    unfold DotDims.rhsIdx
    rw [dif_neg (show ¬(1 : Fin S256x128.rank) ∈ dot_S1024x256_S256x128_S1024x128_1_0_0_1_n_n.rhsBatch by decide),
      dif_pos (show (1 : Fin S256x128.rank) ∈ dot_S1024x256_S256x128_S1024x128_1_0_0_1_n_n.rhsNonContracting by decide)]
    rfl

/-- The second body's product contracts axis 1 of `[2048, 1024]` with axis 0 of `[1024, 128]`. -/
theorem plain1 : Cert.LibDot.Plain dot_S2048x1024_S1024x128_S2048x128_1_0_0_1_n_n where
  hrank := rfl
  hs := rfl
  hl0 := fun j k => by
    unfold DotDims.lhsIdx
    rw [dif_neg (show ¬(0 : Fin S2048x1024.rank) ∈ dot_S2048x1024_S1024x128_S2048x128_1_0_0_1_n_n.lhsBatch by decide),
      dif_pos (show (0 : Fin S2048x1024.rank) ∈ dot_S2048x1024_S1024x128_S2048x128_1_0_0_1_n_n.lhsNonContracting by decide)]
    rfl
  hl1 := fun j k => dot_S2048x1024_S1024x128_S2048x128_1_0_0_1_n_n.lhsIdx_val_of_single rfl j k
  hr0 := fun j k => dot_S2048x1024_S1024x128_S2048x128_1_0_0_1_n_n.rhsIdx_val_of_single rfl j k
  hr1 := fun j k => by
    unfold DotDims.rhsIdx
    rw [dif_neg (show ¬(1 : Fin S1024x128.rank) ∈ dot_S2048x1024_S1024x128_S2048x128_1_0_0_1_n_n.rhsBatch by decide),
      dif_pos (show (1 : Fin S1024x128.rank) ∈ dot_S2048x1024_S1024x128_S2048x128_1_0_0_1_n_n.rhsNonContracting by decide)]
    rfl

/-- The first body's stored block at `(p, j)`: the projection. -/
theorem pay0_apply (v0 : Vec Ideal S1024x256 .f32) (v2 : Vec Ideal S128x256 .f32) (v6 : Vec Ideal S1x128 .f32)
    (p : Fin 1024) (j : Fin 128) :
    k0_pay1 (F := Ideal) v0 v2 v6 (ix2 p j) = (∑ l : Fin 256, v0 (ix2 p l) * v2 (ix2 j l)) + v6 (ix2 (0 : Fin 1) j) := by
  unfold k0_pay1
  rw [truncf_apply, addf_apply]
  refine congrArg₂ (· + ·) ?_ ?_
  · refine (Cert.LibDot.matmul_ix2 plain0 none _ _ p j).trans (Finset.sum_congr rfl fun l _ => ?_)
    rw [truncf_apply, transpose_ix2_apply, truncf_apply]
  · rw [broadcastTo_1b_ab_apply, shapeCast_self]

/-- The second body's initial block is zero at every entry. -/
theorem pay1_apply (p : Fin 2048) (j : Fin 128) : k1_pay1 (F := Ideal) (ix2 p j) = 0 := by
  unfold k1_pay1
  rw [shapeCast_self, broadcast_apply]
  exact Ideal.ofBits_zero_f32

/-- The second body's update at `(p, j)`: the running block's entry plus the masked row times the projected column. -/
theorem pay2_apply (v3 : Vec Ideal S2048x1024 .f32) (v4 : Vec Ideal S2048x1024 .i32) (v9 : Vec Ideal S1024x128 .bf16)
    (v11 : Vec Ideal S2048x128 .f32) (p : Fin 2048) (j : Fin 128) :
    k1_pay2 (F := Ideal) v3 v4 v9 v11 (ix2 p j)
      = v11 (ix2 p j) + ∑ kk : Fin 1024,
          Scalar.select (Scalar.cmpi .ne (v4 (ix2 p kk)) 0#32) (0 : EReal) (v3 (ix2 p kk)) * v9 (ix2 kk j) := by
  unfold k1_pay2
  rw [shapeCast_self, addf_apply]
  refine congrArg (v11 (ix2 p j) + ·) ?_
  refine (Cert.LibDot.matmul_ix2 plain1 none _ _ p j).trans (Finset.sum_congr rfl fun kk _ => ?_)
  rw [truncf_apply, select_apply, broadcast_apply, shapeCast_self]
  have hz : (Scalar.ofBits FTy.f32 0x00000000#32 : Ideal .f32) = (0 : EReal) := Ideal.ofBits_zero_f32
  rw [hz]
  rfl

end Cert.KernelIdeal.Pay

end
-- ==== Proof.KI.Val0.lean ====
/-
  The first kernel region's output array after the region, at the ideal values, is the projection: at row `r`, column
  `j`, `(∑ l, x(r, l) · W(j, l)) + b(0, j)` of the arrays the region is entered with. Grid point `t` writes back row block
  `t` of the output, computed from row block `t` of the first operand and the whole second and third operands; an
  element of a block sits in its array at block index × block size + its offset on each axis; the eight row blocks
  cover the array, row `r` lying in block `r / 1024`.
-/
import proofs.«124004_j23862838297387_1_alg».proof.Proof.KI.Pieces
import proofs.«124004_j23862838297387_1_alg».proof.Proof.Pay
import Idealize.ShloMosaic.Lib.Pipeline.Value

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Region0Value
variable (V : (c : Dev nD) → (b : Ref sig .tc) → Buf (Elt Ideal) ((c : Thread nD τ).loc b))

/-- The projection `x Wᵀ + b` as one array: at row `r`, column `j`, `(∑ l, x(r, l) · W(j, l)) + b(0, j)`. -/
def H (x : FVec Ideal S8192x256 .f32) (W : FVec Ideal S128x256 .f32) (b2 : FVec Ideal S1x128 .f32) : FVec Ideal S8192x128 .bf16 :=
  fun i => (∑ l : Fin 256, x (ValueIdx.ix2 (i 0) l) * W (ValueIdx.ix2 (i 1) l)) + b2 (ValueIdx.ix2 (0 : Fin 1) (i 1))

/-- The body's stored block at any index of the block. -/
theorem pay0_at (x0 : Vec Ideal S1024x256 .f32) (x1 : Vec Ideal S128x256 .f32) (x2 : Vec Ideal S1x128 .f32) (y : S1024x128.Idx) :
    k0_pay1 (F := Ideal) x0 x1 x2 y
      = (∑ l : Fin 256, x0 (ix2 (y 0) l) * x1 (ix2 (y 1) l)) + x2 (ix2 (0 : Fin 1) (y 1)) :=
  (congrArg (k0_pay1 (F := Ideal) x0 x1 x2) (eq_ix2 y)).trans (Pay.pay0_apply x0 x1 x2 (y 0) (y 1))

/-- The index maps over the grid: at point `t` the first operand's and the output's block index is `(t, 0)`, the
    second and third operands' is `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_eq (c : Dev nD) (t : Fin cfg0.N) :
    (dat0 (F := Ideal) V c).flushed 3 t
      = ((cfg0.win 3).blk t).view.read (Elt Ideal) (H (V c main_arg0) (V c main_arg3) (V c main_v0)) := by
  show (cfg0.win 3).cut (grid0.coords t) ((dat0 (F := Ideal) V c).after 3 t) = _
  rw [after0_3, out0_3_eq]
  obtain ⟨e0, e1, e2, e3, e4, e5, e6, e7⟩ := idx_facts0 t
  funext y
  show k0_pay1 (F := Ideal) (iblk0 V c 0 t) (iblk0 V c 1 t) (iblk0 V c 2 t) y
      = H (V c main_arg0) (V c main_arg3) (V c main_v0) (((cfg0.win 3).blk t).view.emb y)
  refine (pay0_at (iblk0 V c 0 t) (iblk0 V c 1 t) (iblk0 V c 2 t) y).trans ?_
  unfold H
  have h0 : ∀ l : Fin 256, iblk0 V c 0 t (ix2 (y 0) l) = V c main_arg0 (ix2 ((((cfg0.win 3).blk t).view.emb y) 0) l) := by
    intro l
    show V c main_arg0 (((cfg0.win 0).blk t).view.emb (ix2 (y 0) l)) = _
    refine congrArg (V c main_arg0) (funext fun a => Fin.ext ?_)
    match a with
    | ⟨0, _⟩ =>
      show win0_0.index t (0 : Fin 2) * 1024 + 1 * (y 0).val = win0_3.index t (0 : Fin 2) * 1024 + 1 * (y 0).val
      omega
    | ⟨1, _⟩ =>
      show win0_0.index t (1 : Fin 2) * 256 + 1 * l.val = l.val
      omega
  have h1 : ∀ l : Fin 256, iblk0 V c 1 t (ix2 (y 1) l) = V c main_arg3 (ix2 ((((cfg0.win 3).blk t).view.emb y) 1) l) := by
    intro l
    show V c main_arg3 (((cfg0.win 1).blk t).view.emb (ix2 (y 1) l)) = _
    refine congrArg (V c main_arg3) (funext fun a => Fin.ext ?_)
    match a with
    | ⟨0, _⟩ =>
      show win0_1.index t (0 : Fin 2) * 128 + 1 * (y 1).val = win0_3.index t (1 : Fin 2) * 128 + 1 * (y 1).val
      omega
    | ⟨1, _⟩ =>
      show win0_1.index t (1 : Fin 2) * 256 + 1 * l.val = l.val
      omega
  have h2 : iblk0 V c 2 t (ix2 (0 : Fin 1) (y 1)) = V c main_v0 (ix2 (0 : Fin 1) ((((cfg0.win 3).blk t).view.emb y) 1)) := by
    show V c main_v0 (((cfg0.win 2).blk t).view.emb (ix2 (0 : Fin 1) (y 1))) = _
    refine congrArg (V c main_v0) (funext fun a => Fin.ext ?_)
    match a with
    | ⟨0, _⟩ =>
      show win0_2.index t (0 : Fin 2) * 1 + 1 * (0 : Fin 1).val = (0 : Fin 1).val
      rw [e4]; rfl
    | ⟨1, _⟩ =>
      show win0_2.index t (1 : Fin 2) * 128 + 1 * (y 1).val = win0_3.index t (1 : Fin 2) * 128 + 1 * (y 1).val
      omega
  refine congrArg₂ (· + ·) (Finset.sum_congr rfl fun l _ => ?_) h2
  rw [h0 l, h1 l]

/-- An index of the output array is in point `t`'s block iff each coordinate is in the block's range on its axis. -/
theorem mem_blk0 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v1).slice (win0_3.rect t)).set ↔ _
  rw [View.set_slice_whole, Rect.mem_set_unit]
  exact Iff.rfl

/-- Every index of the output array is in some point's block: row `r` in the block of point `r / 1024`. -/
theorem cover0 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := rfl
  let t : Fin cfg0.N := ⟨(i 0).val / 1024, by rw [hN]; omega⟩
  obtain ⟨e0, e1, e2, e3, e4, e5, e6, e7⟩ := idx_facts0 t
  have ht : t.val = (i 0).val / 1024 := rfl
  refine ⟨t, flush0_3 t, ?_⟩
  rw [mem_blk0]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 128 ≤ (i 1).val ∧ (i 1).val < win0_3.index t (1 : Fin 2) * 128 + 128
    omega

/-- The first region's output array after the region is the projection of the arrays it was entered with. -/
theorem final0 (c : Dev nD) :
    (dat0 (F := Ideal) V c).arrAt 3 cfg0.N = H (V c main_arg0) (V c main_arg3) (V c main_v0) :=
  (dat0 (F := Ideal) V c).arrAt_eq_of_cover 3 _ (fun t _ => flushed0_eq V c t) (cover0)

end Region0Value

end Cert.KernelIdeal.Frame

end
-- ==== Proof.KI.Blk1.lean ====
/-
  Where a block's element sits in its array, for the second region's windows: at grid point `t` the row tile is `t / 8`
  and the reduction tile `t % 8`; the two big operands' blocks are [2048, 1024] at block index (row tile, reduction
  tile), the projected rows' block is [1024, 128] at (reduction tile, 0), and the output's block is [2048, 128] at
  (row tile, 0).
-/
import proofs.«124004_j23862838297387_1_alg».proof.Proof.KI.Reg1
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Cert.KernelIdeal Cert.KernelIdeal.Gen
open Idealize.SL.Sem
open Idealize.ShloMosaic.Pipeline (Dat Cfg Window)
open scoped BigOperators

variable {F : FTy → Type} [FloatOps F]
variable (V : (c : Dev nD) → (b : Ref sig .tc) → Buf (Elt F) ((c : Thread nD τ).loc b))

theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx1_1 : ∀ t : Fin cfg1.N, win1_1.index t 0 = t.val / 8 ∧ win1_1.index t 1 = t.val % 8 :=
  (by decide +kernel : ∀ t : Fin grid1.N, win1_1.index t 0 = t.val / 8 ∧ win1_1.index t 1 = t.val % 8)
theorem idx1_2 : ∀ t : Fin cfg1.N, win1_2.index t 0 = t.val % 8 ∧ win1_2.index t 1 = 0 :=
  (by decide +kernel : ∀ t : Fin grid1.N, win1_2.index t 0 = t.val % 8 ∧ win1_2.index t 1 = 0)
theorem idx1_3 : ∀ t : Fin cfg1.N, win1_3.index t 0 = t.val / 8 ∧ win1_3.index t 1 = 0 :=
  (by decide +kernel : ∀ t : Fin grid1.N, win1_3.index t 0 = t.val / 8 ∧ win1_3.index t 1 = 0)

/-- The first operand's block at point `t`, read at (p, kk): the array at (row tile · 2048 + p, reduction tile · 1024 + kk). -/
theorem iblk1_0_apply (c : Dev nD) (t : Fin cfg1.N) (p : Fin 2048) (kk : Fin 1024) (hr : t.val / 8 * 2048 + p.val < 8192) (hq : t.val % 8 * 1024 + kk.val < 8192) :
    (iblk1 V c 0 t : Vec F S2048x1024 .f32) (ix2 p kk) = (V c main_arg1 : S8192x8192.Idx → Elt F .f32) (ix2 ⟨t.val / 8 * 2048 + p.val, hr⟩ ⟨t.val % 8 * 1024 + kk.val, hq⟩) := by
  unfold iblk1
  rw [View.read_apply]
  show V c main_arg1 _ = V c main_arg1 _
  refine congrArg (V c main_arg1) ?_
  funext a
  apply Fin.ext
  match a with
  | ⟨0, _⟩ => show win1_0.index t 0 * 2048 + 1 * p.val = _; rw [(idx1_0 t).1]; show _ = t.val / 8 * 2048 + p.val; omega
  | ⟨1, _⟩ => show win1_0.index t 1 * 1024 + 1 * kk.val = _; rw [(idx1_0 t).2]; show _ = t.val % 8 * 1024 + kk.val; omega

/-- The converted mask's block, likewise. -/
theorem iblk1_1_apply (c : Dev nD) (t : Fin cfg1.N) (p : Fin 2048) (kk : Fin 1024) (hr : t.val / 8 * 2048 + p.val < 8192) (hq : t.val % 8 * 1024 + kk.val < 8192) :
    (iblk1 V c 1 t : Vec F S2048x1024 .i32) (ix2 p kk) = (V c main_v2 : S8192x8192.Idx → Elt F .i32) (ix2 ⟨t.val / 8 * 2048 + p.val, hr⟩ ⟨t.val % 8 * 1024 + kk.val, hq⟩) := by
  unfold iblk1
  rw [View.read_apply]
  show V c main_v2 _ = V c main_v2 _
  refine congrArg (V c main_v2) ?_
  funext a
  apply Fin.ext
  match a with
  | ⟨0, _⟩ => show win1_1.index t 0 * 2048 + 1 * p.val = _; rw [(idx1_1 t).1]; show _ = t.val / 8 * 2048 + p.val; omega
  | ⟨1, _⟩ => show win1_1.index t 1 * 1024 + 1 * kk.val = _; rw [(idx1_1 t).2]; show _ = t.val % 8 * 1024 + kk.val; omega

/-- The projected rows' block at point `t`, read at (kk, j): the array at (reduction tile · 1024 + kk, j). -/
theorem iblk1_2_apply (c : Dev nD) (t : Fin cfg1.N) (kk : Fin 1024) (j : Fin 128) (hq : t.val % 8 * 1024 + kk.val < 8192) :
    (iblk1 V c 2 t : Vec F S1024x128 .bf16) (ix2 kk j) = (V c main_v1 : S8192x128.Idx → Elt F .bf16) (ix2 ⟨t.val % 8 * 1024 + kk.val, hq⟩ j) := by
  unfold iblk1
  rw [View.read_apply]
  show V c main_v1 _ = V c main_v1 _
  refine congrArg (V c main_v1) ?_
  funext a
  apply Fin.ext
  match a with
  | ⟨0, _⟩ => show win1_2.index t 0 * 1024 + 1 * kk.val = _; rw [(idx1_2 t).1]; show _ = t.val % 8 * 1024 + kk.val; omega
  | ⟨1, _⟩ => show win1_2.index t 1 * 128 + 1 * j.val = _; rw [(idx1_2 t).2]; show _ = j.val; omega

/-- The three input blocks at a point, typed as the body's loads are. -/
def blk1_0 (c : Dev nD) (t : Fin cfg1.N) : Vec F S2048x1024 .f32 := iblk1 V c 0 t
def blk1_1 (c : Dev nD) (t : Fin cfg1.N) : Vec F S2048x1024 .i32 := iblk1 V c 1 t
def blk1_2 (c : Dev nD) (t : Fin cfg1.N) : Vec F S1024x128 .bf16 := iblk1 V c 2 t

theorem blk1_0_apply (c : Dev nD) (t : Fin cfg1.N) (p : Fin 2048) (kk : Fin 1024) (hr : t.val / 8 * 2048 + p.val < 8192) (hq : t.val % 8 * 1024 + kk.val < 8192) :
    blk1_0 V c t (ix2 p kk) = (V c main_arg1 : S8192x8192.Idx → Elt F .f32) (ix2 ⟨t.val / 8 * 2048 + p.val, hr⟩ ⟨t.val % 8 * 1024 + kk.val, hq⟩) :=
  iblk1_0_apply V c t p kk hr hq
theorem blk1_1_apply (c : Dev nD) (t : Fin cfg1.N) (p : Fin 2048) (kk : Fin 1024) (hr : t.val / 8 * 2048 + p.val < 8192) (hq : t.val % 8 * 1024 + kk.val < 8192) :
    blk1_1 V c t (ix2 p kk) = (V c main_v2 : S8192x8192.Idx → Elt F .i32) (ix2 ⟨t.val / 8 * 2048 + p.val, hr⟩ ⟨t.val % 8 * 1024 + kk.val, hq⟩) :=
  iblk1_1_apply V c t p kk hr hq
theorem blk1_2_apply (c : Dev nD) (t : Fin cfg1.N) (kk : Fin 1024) (j : Fin 128) (hq : t.val % 8 * 1024 + kk.val < 8192) :
    blk1_2 V c t (ix2 kk j) = (V c main_v1 : S8192x128.Idx → Elt F .bf16) (ix2 ⟨t.val % 8 * 1024 + kk.val, hq⟩ j) :=
  iblk1_2_apply V c t kk j hq

/-- The grid point that writes back the row tile holding row `r`. -/
def lastOf (r : ℕ) (hr : r < 8192) : Fin cfg1.N := ⟨r / 2048 * 8 + 7, by rw [show cfg1.N = 32 from N_1]; omega⟩
theorem lastOf_val (r : ℕ) (hr : r < 8192) : (lastOf r hr).val = r / 2048 * 8 + 7 := rfl

end Cert.KernelIdeal.Frame

end
-- ==== Proof.KI.Val1a.lean ====
/-
  The second region's scratch accumulator after each grid point, as the body's arithmetic (at any instance): restarted
  from the zero block at each first reduction tile, and otherwise the tile's product added to what the point before
  left; at a last reduction tile the output window's buffer receives the same contents.
-/
import proofs.«124004_j23862838297387_1_alg».proof.Proof.KI.Blk1
import proofs.«124004_j23862838297387_1_alg».proof.Proof.KI.Pieces
import proofs.«124004_j23862838297387_1_alg».proof.Proof.Pay

set_option maxRecDepth 16384

noncomputable section

namespace Cert.KernelIdeal.Frame

open Idealize.ShloMosaic Idealize.ShloMosaic.TcCoe Idealize.ShloMosaic.ValueIdx
open Cert.KernelIdeal Cert.KernelIdeal.Gen
open Idealize.SL.Sem
open Idealize.ShloMosaic.Pipeline (Dat Cfg Window)
open scoped BigOperators

section Generic
variable {F : FTy → Type} [FloatOps F]
variable (V : (c : Dev nD) → (b : Ref sig .tc) → Buf (Elt F) ((c : Thread nD τ).loc b))

set_option maxHeartbeats 1600000 in
/-- What the accumulator holds after a first reduction tile: the tile's product added to the zero block. -/
theorem outsAt1_A_snd (c : Dev nD) (t : Fin cfg1.N) (h0 : t.val % 8 = 0) (h1 : ¬t.val % 8 = 7) :
    (outsAt1 V c t.val t.isLt).2 = k1_pay2 (blk1_0 V c t) (blk1_1 V c t) (blk1_2 V c t) (k1_pay1 (F := F)) := by
  rw [outsAt1_A V c t h0 h1]
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

set_option maxHeartbeats 1600000 in
/-- After a middle reduction tile: the tile's product added to what the point before left. -/
theorem outsAt1_B_snd (c : Dev nD) (t : Fin cfg1.N) (h0 : ¬t.val % 8 = 0) (h1 : ¬t.val % 8 = 7) :
    (outsAt1 V c t.val t.isLt).2 = k1_pay2 (blk1_0 V c t) (blk1_1 V c t) (blk1_2 V c t) (outsAt1 V c (t.val - 1) (Nat.lt_of_le_of_lt (Nat.sub_le _ _) t.isLt)).2 := by
  rw [outsAt1_B V c t h0 h1]
  exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

set_option maxHeartbeats 1600000 in
/-- After a last reduction tile: the same, and the output window's buffer receives it too. -/
theorem outsAt1_C_snd (c : Dev nD) (t : Fin cfg1.N) (h0 : ¬t.val % 8 = 0) (h1 : t.val % 8 = 7) :
    (outsAt1 V c t.val t.isLt).2 = k1_pay2 (blk1_0 V c t) (blk1_1 V c t) (blk1_2 V c t) (outsAt1 V c (t.val - 1) (Nat.lt_of_le_of_lt (Nat.sub_le _ _) t.isLt)).2 := by
  rw [outsAt1_C V c t h0 h1]
  exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

set_option maxHeartbeats 1600000 in
theorem outsAt1_C_fst (c : Dev nD) (t : Fin cfg1.N) (h0 : ¬t.val % 8 = 0) (h1 : t.val % 8 = 7) :
    (outsAt1 V c t.val t.isLt).1 = k1_pay2 (blk1_0 V c t) (blk1_1 V c t) (blk1_2 V c t) (outsAt1 V c (t.val - 1) (Nat.lt_of_le_of_lt (Nat.sub_le _ _) t.isLt)).2 := by
  rw [outsAt1_C V c t h0 h1]
  exact out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-- The accumulator after position `n`, as the body's arithmetic: restarted from the zero block at a first reduction
    tile, continued from the position before otherwise. -/
def chain1 (c : Dev nD) : (n : ℕ) → n < cfg1.N → Vec F S2048x128 .f32
  | 0, h => k1_pay2 (blk1_0 V c ⟨0, h⟩) (blk1_1 V c ⟨0, h⟩) (blk1_2 V c ⟨0, h⟩) (k1_pay1 (F := F))
  | n + 1, h =>
    if (n + 1) % 8 = 0 then k1_pay2 (blk1_0 V c ⟨n + 1, h⟩) (blk1_1 V c ⟨n + 1, h⟩) (blk1_2 V c ⟨n + 1, h⟩) (k1_pay1 (F := F))
    else k1_pay2 (blk1_0 V c ⟨n + 1, h⟩) (blk1_1 V c ⟨n + 1, h⟩) (blk1_2 V c ⟨n + 1, h⟩) (chain1 c n (Nat.lt_of_succ_lt h))

theorem chain1_reset (c : Dev nD) (n : ℕ) (h : n < cfg1.N) (h0 : n % 8 = 0) :
    chain1 V c n h = k1_pay2 (blk1_0 V c ⟨n, h⟩) (blk1_1 V c ⟨n, h⟩) (blk1_2 V c ⟨n, h⟩) (k1_pay1 (F := F)) := by
  cases n with
  | zero => rfl
  | succ n => exact if_pos h0

theorem chain1_step (c : Dev nD) (n : ℕ) (h : n + 1 < cfg1.N) (h0 : ¬(n + 1) % 8 = 0) :
    chain1 V c (n + 1) h = k1_pay2 (blk1_0 V c ⟨n + 1, h⟩) (blk1_1 V c ⟨n + 1, h⟩) (blk1_2 V c ⟨n + 1, h⟩) (chain1 V c n (Nat.lt_of_succ_lt h)) :=
  if_neg h0

/-- What the accumulator holds after each position is that arithmetic: by induction on the position. -/
theorem outsAt_snd_eq (c : Dev nD) : ∀ (n : ℕ) (h : n < cfg1.N), (outsAt1 V c n h).2 = chain1 V c n h
  | 0, h => (outsAt1_A_snd V c ⟨0, h⟩ rfl (show ¬(0 : ℕ) % 8 = 7 by decide)).trans (chain1_reset V c 0 h rfl).symm
  | n + 1, h => by
    by_cases h0 : (n + 1) % 8 = 0
    · have h1 : ¬(n + 1) % 8 = 7 := by omega
      exact (outsAt1_A_snd V c ⟨n + 1, h⟩ h0 h1).trans (chain1_reset V c (n + 1) h h0).symm
    · rw [chain1_step V c n h h0, ← outsAt_snd_eq c n (Nat.lt_of_succ_lt h)]
      by_cases h1 : (n + 1) % 8 = 7
      · exact outsAt1_C_snd V c ⟨n + 1, h⟩ h0 h1
      · exact outsAt1_B_snd V c ⟨n + 1, h⟩ h0 h1

/-- At a last reduction tile the output window's buffer receives the accumulator. -/
theorem outsAt_fst_eq (c : Dev nD) (t : Fin cfg1.N) (h7 : t.val % 8 = 7) :
    (outsAt1 V c t.val t.isLt).1 = chain1 V c t.val t.isLt := by
  have h0 : ¬t.val % 8 = 0 := by omega
  rw [← outsAt_snd_eq V c t.val t.isLt]
  exact (outsAt1_C_fst V c t h0 h7).trans (outsAt1_C_snd V c t h0 h7).symm

end Generic

end Cert.KernelIdeal.Frame

end
-- ==== Proof.KI.Val1.lean ====
/-
  The second region's output array after the region, at the ideal instance.

  After grid point `t` (row tile `t / 8`, reduction tile `t % 8`) the scratch accumulator holds, at (p, j), the sum over
  the columns `q` below `(t % 8 + 1) · 1024` of `masked(row, q) · h(q, j)` with `row = (t / 8) · 2048 + p`: the reset
  at a first reduction tile starts the sum from zero, and every point adds its tile's 1024 terms (one matrix product
  into a zero accumulator). At the last reduction tile the sum runs over all 8192 columns; that is what is copied into
  the output window and written back, and the four row tiles' write-backs cover the output array.
-/
import proofs.«124004_j23862838297387_1_alg».proof.Proof.KI.Val1a
import proofs.«124004_j23862838297387_1_alg».proof.Proof.Pay

set_option maxRecDepth 16384

noncomputable section

namespace Cert.KernelIdeal.Frame

open Idealize.ShloMosaic Idealize.ShloMosaic.TcCoe Idealize.ShloMosaic.ValueIdx
open Cert.KernelIdeal Cert.KernelIdeal.Gen
open Idealize.SL.Sem
open Idealize.ShloMosaic.Pipeline (Dat Cfg Window)
open scoped BigOperators

section AtIdeal
variable (V : (c : Dev nD) → (b : Ref sig .tc) → Buf (Elt Ideal) ((c : Thread nD τ).loc b))

/-- One term of the masked product: `masked(r, q) · h(q, j)` read off the region's entry contents (zero outside the array,
    so that it can be summed over ranges of naturals). -/
def term (c : Dev nD) (r q : ℕ) (j : Fin 128) : EReal :=
  if h : r < 8192 ∧ q < 8192 then
    Scalar.select (Scalar.cmpi .ne ((V c main_v2 : S8192x8192.Idx → Elt Ideal .i32) (ix2 ⟨r, h.1⟩ ⟨q, h.2⟩)) 0#32) (0 : EReal)
        ((V c main_arg1 : S8192x8192.Idx → Elt Ideal .f32) (ix2 ⟨r, h.1⟩ ⟨q, h.2⟩))
      * (V c main_v1 : S8192x128.Idx → Elt Ideal .bf16) (ix2 ⟨q, h.2⟩ j)
  else 0

set_option maxHeartbeats 1600000 in
/-- One point's arithmetic at (p, j): what the accumulator held, plus the tile's 1024 terms. -/
theorem tile_sum (c : Dev nD) (t : Fin cfg1.N) (p : Fin 2048) (j : Fin 128) (acc : Vec Ideal S2048x128 .f32) :
    k1_pay2 (F := Ideal) (blk1_0 V c t) (blk1_1 V c t) (blk1_2 V c t) acc (ix2 p j)
      = acc (ix2 p j) + ∑ kk : Fin 1024, term V c (t.val / 8 * 2048 + p.val) (t.val % 8 * 1024 + kk.val) j := by
  have hN : t.val < 32 := lt_of_lt_of_eq t.isLt N_1
  refine (Pay.pay2_apply (blk1_0 V c t) (blk1_1 V c t) (blk1_2 V c t) acc p j).trans ?_
  refine congrArg (acc (ix2 p j) + ·) (Finset.sum_congr rfl fun kk _ => ?_)
  have hr : t.val / 8 * 2048 + p.val < 8192 := by have := p.isLt; omega
  have hq : t.val % 8 * 1024 + kk.val < 8192 := by have := kk.isLt; omega
  rw [blk1_0_apply V c t p kk hr hq, blk1_1_apply V c t p kk hr hq, blk1_2_apply V c t kk j hq]
  unfold term
  rw [dif_pos ⟨hr, hq⟩]

theorem term_congr (c : Dev nD) {r r' q q' : ℕ} (hr : r = r') (hq : q = q') (j : Fin 128) : term V c r q j = term V c r' q' j := by
  subst hr; subst hq; rfl

/-- A range of `(k + 1) · 1024` naturals is the first `k · 1024` and then one more tile. -/
theorem range_tile (f : ℕ → EReal) (k : ℕ) :
    ∑ q ∈ Finset.range ((k + 1) * 1024), f q = ∑ q ∈ Finset.range (k * 1024), f q + ∑ kk : Fin 1024, f (k * 1024 + kk.val) := by
  rw [show (k + 1) * 1024 = k * 1024 + 1024 by ring, Finset.sum_range_add]
  exact congrArg (_ + ·) (Finset.sum_range fun x => f (k * 1024 + x))

/-- At a first reduction tile the accumulator holds the first tile's terms. -/
theorem chain1_apply_reset (c : Dev nD) (n : ℕ) (h : n < cfg1.N) (h0 : n % 8 = 0) (p : Fin 2048) (j : Fin 128) :
    chain1 V c n h (ix2 p j) = ∑ q ∈ Finset.range ((n % 8 + 1) * 1024), term V c (n / 8 * 2048 + p.val) q j := by
  have hR : ∑ q ∈ Finset.range ((n % 8 + 1) * 1024), term V c (n / 8 * 2048 + p.val) q j
      = ∑ kk : Fin 1024, term V c (n / 8 * 2048 + p.val) (n % 8 * 1024 + kk.val) j := by
    rw [range_tile, h0, zero_mul, Finset.range_zero, Finset.sum_empty, zero_add]
  rw [hR, chain1_reset V c n h h0, tile_sum, Pay.pay1_apply, zero_add]

/-- The accumulator after position `n`, at (p, j): the terms of its row over the columns below `(n % 8 + 1) · 1024`. -/
theorem chain1_apply (c : Dev nD) : ∀ (n : ℕ) (h : n < cfg1.N) (p : Fin 2048) (j : Fin 128),
    chain1 V c n h (ix2 p j) = ∑ q ∈ Finset.range ((n % 8 + 1) * 1024), term V c (n / 8 * 2048 + p.val) q j
  | 0, h, p, j => chain1_apply_reset V c 0 h rfl p j
  | n + 1, h, p, j => by
    have hN : n + 1 < 32 := lt_of_lt_of_eq h N_1
    by_cases h0 : (n + 1) % 8 = 0
    · exact chain1_apply_reset V c (n + 1) h h0 p j
    · have hm : (n + 1) % 8 = n % 8 + 1 := by omega
      have hd : (n + 1) / 8 = n / 8 := by omega
      have hR : ∑ q ∈ Finset.range (((n + 1) % 8 + 1) * 1024), term V c ((n + 1) / 8 * 2048 + p.val) q j
          = ∑ q ∈ Finset.range ((n % 8 + 1) * 1024), term V c (n / 8 * 2048 + p.val) q j
            + ∑ kk : Fin 1024, term V c ((n + 1) / 8 * 2048 + p.val) ((n + 1) % 8 * 1024 + kk.val) j := by
        rw [range_tile, hd, hm]
      rw [hR, chain1_step V c n h h0, tile_sum, chain1_apply c n _ p j]

/-- The output array after the region: at (r, j) the terms of row `r` over all 8192 columns. -/
def Gout (c : Dev nD) : FVec Ideal S8192x128 .f32 :=
  fun i => ∑ q : Fin 8192, term V c (i 0).val q.val ⟨(i 1).val, (i 1).isLt⟩

set_option maxHeartbeats 1600000 in
/-- What a last-reduction-tile point writes back is its block of that array. -/
theorem flushed1_eq (c : Dev nD) (t : Fin cfg1.N) (hf : (cfg1.win 3).flush t = true) :
    (dat1 V c).flushed 3 t = ((cfg1.win 3).blk t).view.read (Elt Ideal) (Gout V c) := by
  have h7 : t.val % 8 = 7 := (flush1_3 t).mp hf
  have hN : t.val < 32 := lt_of_lt_of_eq t.isLt N_1
  show (cfg1.win 3).cut (grid1.coords t) ((dat1 V c).after 3 t) = _
  rw [after1_3, outsAt_fst_eq V c t h7]
  funext y
  show chain1 V c t.val t.isLt y = Gout V c (((cfg1.win 3).blk t).view.emb y)
  have hy : y = ix2 (⟨(y 0).val, (y 0).isLt⟩ : Fin 2048) (⟨(y 1).val, (y 1).isLt⟩ : Fin 128) := by
    funext a; match a with | ⟨0, _⟩ => rfl | ⟨1, _⟩ => rfl
  have e0 : ((((cfg1.win 3).blk t).view.emb y) 0).val = t.val / 8 * 2048 + (y 0).val := by
    show win1_3.index t 0 * 2048 + 1 * (y 0).val = _; rw [(idx1_3 t).1]; omega
  have e1 : ((((cfg1.win 3).blk t).view.emb y) 1).val = (y 1).val := by
    show win1_3.index t 1 * 128 + 1 * (y 1).val = _; rw [(idx1_3 t).2]; omega
  refine (congrArg (chain1 V c t.val t.isLt) hy).trans ?_
  rw [chain1_apply, h7]
  unfold Gout
  rw [Finset.sum_range]
  refine Finset.sum_congr rfl fun q _ => ?_
  exact (term_congr V c e0.symm rfl _).trans (congrArg (term V c _ _) (Fin.ext e1.symm))

set_option maxHeartbeats 1600000 in
/-- The four row tiles' write-backs cover the output array, so it ends holding `Gout`. -/
theorem final1 (c : Dev nD) : (dat1 V c).arrAt 3 cfg1.N = Gout V c :=
  (dat1 V c).arrAt_eq_of_cover 3 (Gout V c) (flushed1_eq V c) fun i => by
    have hi0 : (i 0).val < 8192 := (i 0).isLt
    have hi1 : (i 1).val < 128 := (i 1).isLt
    refine ⟨lastOf (i 0).val hi0, (flush1_3 _).mpr (by rw [lastOf_val]; omega), ?_⟩
    show i ∈ ((View.whole main_v3).slice (win1_3.rect (lastOf (i 0).val hi0))).set
    rw [View.set_slice_whole, Rect.mem_set_unit]
    intro a
    match a with
    | ⟨0, _⟩ =>
      show win1_3.index (lastOf (i 0).val hi0) 0 * 2048 ≤ (i 0).val ∧ (i 0).val < win1_3.index (lastOf (i 0).val hi0) 0 * 2048 + 2048
      rw [(idx1_3 _).1, lastOf_val]
      omega
    | ⟨1, _⟩ =>
      show win1_3.index (lastOf (i 0).val hi0) 1 * 128 ≤ (i 1).val ∧ (i 1).val < win1_3.index (lastOf (i 0).val hi0) 1 * 128 + 128
      rw [(idx1_3 _).2]
      omega

end AtIdeal

end Cert.KernelIdeal.Frame

end
-- ==== Proof.KI.Run.lean ====
/-
  The whole run of the program on every core: the buffer contents at each boundary between its four items (a host
  reshape, the projection region, a host conversion of the mask, the masked-product region) as a fold from the launch
  memory; each region as a segment entered from the contents before it and left at the contents after it, its arrays at
  what its pipeline's write-backs leave; and the run itself: every weakly fair execution terminates, nothing faulting,
  with every unscoped buffer at the last boundary's contents. The argument arrays walk back through the fold to their
  launch contents, which is the frame.
-/
import proofs.«124004_j23862838297387_1_alg».proof.Proof.KI.Reg0
import proofs.«124004_j23862838297387_1_alg».proof.Proof.KI.Reg1

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host conversion of the mask (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The host reshape writes only its own result buffer. -/
theorem W1_keep (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- The host conversion writes only its own result buffer. -/
theorem W3_keep (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_keep m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

/-! ## The proof data family and the thread state -/

abbrev adm : (p : Fin 2) → (pcfgs (F := F) p).Adm := fun p => (cfgs p).toPCfg_adm
/-- Every pipeline's per-point data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every final state has the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Frame

end
-- ==== Proof.KI.Host.lean ====
/-
  What the two host operations and the boundaries between the items leave in the buffers the regions read: the bias
  reshaped to one row, the Boolean mask widened to 32-bit words, the arguments untouched, and the projection region's
  output array carried unchanged to the second region.
-/
import proofs.«124004_j23862838297387_1_alg».proof.Proof.KI.Run
import Idealize.ShloMosaic.Lib.StableHlo.Run

set_option maxRecDepth 16384

noncomputable section

namespace Cert.KernelIdeal.Frame

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V1_main_arg0 (c : Dev nD) : V1 m ρ c main_arg0 = m ((c : Thread nD τ).loc main_arg0) :=
  (W1_keep m ρ c main_arg0 (by decide)).trans rfl
theorem V1_main_arg3 (c : Dev nD) : V1 m ρ c main_arg3 = m ((c : Thread nD τ).loc main_arg3) :=
  (W1_keep m ρ c main_arg3 (by decide)).trans rfl

/-- The first region reads the bias as one row: the host's reshape of it. -/
theorem V1_main_v0 (c : Dev nD) :
    (V1 m ρ c main_v0 : S1x128.Idx → Elt F .f32) = shapeCast S1x128 (m ((c : Thread nD τ).loc main_arg4)) shapeCasts_S128_S1x128 := by
  show StableHlo.after hostOps0 (W0 m ρ c) (Proc.devRef .tc main_v0) = _
  after_results <;> rfl

theorem W2_main_arg2 (c : Dev nD) : W2 m ρ c (Proc.devRef .tc main_arg2) = m ((c : Thread nD τ).loc main_arg2) :=
  (W2_of_ne m ρ c main_arg2 (by decide)).trans ((W1_keep m ρ c main_arg2 (by decide)).trans rfl)

/-- The second region reads the mask widened to 32-bit words. -/
theorem V3_main_v2 (c : Dev nD) :
    (V3 m ρ c main_v2 : S8192x8192.Idx → Elt F .i32) = extui 32 (m ((c : Thread nD τ).loc main_arg2)) natLt_1_32 := by
  have h : StableHlo.after hostOps1 (W2 m ρ c) (Proc.devRef .tc main_v2) = extui 32 (W2 m ρ c (Proc.devRef .tc main_arg2)) natLt_1_32 := by
    after_results <;> rfl
  exact h.trans (congrArg (fun x => extui 32 x natLt_1_32) (W2_main_arg2 m ρ c))

theorem V3_main_arg1 (c : Dev nD) : V3 m ρ c main_arg1 = m ((c : Thread nD τ).loc main_arg1) :=
  (W3_keep m ρ c main_arg1 (by decide)).trans ((W2_of_ne m ρ c main_arg1 (by decide)).trans ((W1_keep m ρ c main_arg1 (by decide)).trans rfl))

/-- The second region reads the projection where the first region's write-backs left it. -/
theorem V3_main_v1 (c : Dev nD) : V3 m ρ c main_v1 = (dat0 (V1 m ρ) c).arrAt 3 cfg0.N :=
  (W3_keep m ρ c main_v1 (by decide)).trans (W2_arr m ρ c 3)

/-- The result array after the run is what the second region's write-backs leave. -/
theorem W4_main_v3 (c : Dev nD) : W4 m ρ c (Proc.devRef .tc main_v3) = (dat1 (V3 m ρ) c).arrAt 3 cfg1.N :=
  W4_arr m ρ c 3

end Cert.KernelIdeal.Frame

end
-- ==== Proof.Spec.lean ====
/-
  The function both programs compute at the ideal instance, written once over literal shapes.

  With `x : [8192, 256]`, `A : [8192, 8192]`, a Boolean mask of `A`'s shape, `W : [128, 256]` and `b : [128]`:
  the projection is `h(k, j) = (∑ l, x(k, l) · W(j, l)) + b(j)`, the masked matrix is `A` with the masked entries
  replaced by zero, and the result is their product `out(r, j) = ∑ k, masked(r, k) · h(k, j)` — every sum and product
  taken on the extended reals.
-/
import Idealize.ShloMosaic.PureOps.Ideal
import Idealize.ShloMosaic.Lib.ValueIdx

noncomputable section

namespace Cert.Spec

open Idealize.ShloMosaic Idealize.ShloMosaic.ValueIdx
open scoped BigOperators

/-- The projection `x Wᵀ + b` at row `k`, column `j`. -/
def proj (x : FVec Ideal ⟨2, ![8192, 256]⟩ .f32) (W : FVec Ideal ⟨2, ![128, 256]⟩ .f32) (b : FVec Ideal ⟨1, ![128]⟩ .f32)
    (k : Fin 8192) (j : Fin 128) : EReal :=
  (∑ l : Fin 256, x (ix2 k l) * W (ix2 j l)) + b (ix1 j)

/-- The matrix with its masked entries replaced by zero, at row `r`, column `k`. -/
def masked (A : FVec Ideal ⟨2, ![8192, 8192]⟩ .f32) (mask : IVec ⟨2, ![8192, 8192]⟩ 1) (r k : Fin 8192) : EReal :=
  Scalar.select (mask (ix2 r k)) (0 : EReal) (A (ix2 r k))

/-- The result at row `r`, column `j`: the masked matrix times the projection. -/
def out (x : FVec Ideal ⟨2, ![8192, 256]⟩ .f32) (A : FVec Ideal ⟨2, ![8192, 8192]⟩ .f32) (mask : IVec ⟨2, ![8192, 8192]⟩ 1)
    (W : FVec Ideal ⟨2, ![128, 256]⟩ .f32) (b : FVec Ideal ⟨1, ![128]⟩ .f32) (r : Fin 8192) (j : Fin 128) : EReal :=
  ∑ k : Fin 8192, masked A mask r k * proj x W b k j

/-- The result as one array. -/
def G (x : FVec Ideal ⟨2, ![8192, 256]⟩ .f32) (A : FVec Ideal ⟨2, ![8192, 8192]⟩ .f32) (mask : IVec ⟨2, ![8192, 8192]⟩ 1)
    (W : FVec Ideal ⟨2, ![128, 256]⟩ .f32) (b : FVec Ideal ⟨1, ![128]⟩ .f32) : FVec Ideal ⟨2, ![8192, 128]⟩ .f32 :=
  fun i => out x A mask W b (i 0) (i 1)

theorem G_apply (x : FVec Ideal ⟨2, ![8192, 256]⟩ .f32) (A : FVec Ideal ⟨2, ![8192, 8192]⟩ .f32) (mask : IVec ⟨2, ![8192, 8192]⟩ 1)
    (W : FVec Ideal ⟨2, ![128, 256]⟩ .f32) (b : FVec Ideal ⟨1, ![128]⟩ .f32) (r : Fin 8192) (j : Fin 128) :
    G x A mask W b (ix2 r j) = out x A mask W b r j := rfl

end Cert.Spec

end
-- ==== Proof.KI.Value.lean ====
/-
  The kernel program's result array at the ideal instance is the specification of its argument arrays.

  The second region reads the mask widened to 32-bit words and tests each word against zero, which gives the mask's bit
  back; it reads the first operand untouched and the projection where the first region left it; the first region reads
  `x` and `W` untouched and the bias as the one row the host reshaped it into. So each term of the second region's
  column sum is the specification's `masked(r, q) · proj(q, j)`.
-/
import proofs.«124004_j23862838297387_1_alg».proof.Proof.KI.Val0
import proofs.«124004_j23862838297387_1_alg».proof.Proof.KI.Val1
import proofs.«124004_j23862838297387_1_alg».proof.Proof.KI.Host
import proofs.«124004_j23862838297387_1_alg».proof.Proof.Spec
import Idealize.ShloMosaic.Lib.ValueLayout

set_option maxRecDepth 16384

noncomputable section

namespace Cert.KernelIdeal.Frame

open Idealize.ShloMosaic Idealize.ShloMosaic.TcCoe Idealize.ShloMosaic.ValueIdx
open Cert.KernelIdeal Cert.KernelIdeal.Gen
open Idealize.SL.Sem
open Idealize.ShloMosaic.Pipeline (Dat Cfg Window)
open scoped BigOperators

/-- Widening a Boolean to a word and testing the word against zero gives the Boolean back. -/
theorem cmpi_ne_setWidth (x : BitVec 1) : Scalar.cmpi .ne (x.setWidth 32) 0#32 = x := by
  rcases BitVec.eq_zero_or_eq_one x with h | h <;> subst h <;> decide

variable (m : (ℓ : Loc nD τ sig) → Buf (Elt Ideal) ℓ) (ρ : Dev nD → PrngReg)

set_option maxHeartbeats 1600000 in
/-- The second region's column sums, over the contents it is entered from, are the specification. -/
theorem Gout_eq (c : Dev nD) :
    Gout (V3 m ρ) c = Cert.Spec.G (m ((c : Thread nD τ).loc main_arg0)) (m ((c : Thread nD τ).loc main_arg1)) (m ((c : Thread nD τ).loc main_arg2))
      (m ((c : Thread nD τ).loc main_arg3)) (m ((c : Thread nD τ).loc main_arg4)) := by
  funext i
  obtain ⟨r, j, rfl⟩ : ∃ (r : Fin 8192) (j : Fin 128), i = ix2 r j := ⟨i 0, i 1, eq_ix2 i⟩
  rw [Cert.Spec.G_apply]
  unfold Gout Cert.Spec.out
  refine Finset.sum_congr rfl fun q _ => ?_
  show term (V3 m ρ) c r.val q.val j = _
  unfold term
  rw [dif_pos ⟨r.isLt, q.isLt⟩]
  show Scalar.select (Scalar.cmpi .ne ((V3 m ρ c main_v2 : S8192x8192.Idx → Elt Ideal .i32) (ix2 r q)) 0#32) (0 : EReal)
      ((V3 m ρ c main_arg1 : S8192x8192.Idx → Elt Ideal .f32) (ix2 r q)) * (V3 m ρ c main_v1 : S8192x128.Idx → Elt Ideal .bf16) (ix2 q j) = _
  rw [V3_main_v2, V3_main_arg1, V3_main_v1, final0, V1_main_arg0, V1_main_arg3, V1_main_v0]
  unfold Cert.Spec.masked Cert.Spec.proj H
  rw [extui_apply, cmpi_ne_setWidth]
  refine congrArg₂ (fun a b : EReal => a * b) rfl ?_
  show (∑ l : Fin 256, _) + shapeCast S1x128 (m ((c : Thread nD τ).loc main_arg4)) shapeCasts_S128_S1x128 (ix2 (0 : Fin 1) j) = _
  rw [shapeCast_a_1a_apply]

/-- THE RUN, READ: every weakly fair execution terminates with the result array at the specification of the argument
    arrays and the argument arrays as launched. -/
theorem run_value : θ_run defs (onTc (τ := τ) (main (F := Ideal))) ⟨m, fun _ => 0, ρ⟩ (fun r => ∀ c : Dev nD,
      r.2.mem ((c.tc : Thread nD τ).loc main_v3) = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans ((W4_main_v3 m ρ c).trans ((final1 (V3 m ρ) c).trans (Gout_eq m ρ c))),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Frame

end
-- ==== Proof.RefSpec.lean ====
import proofs.«124004_j23862838297387_1_alg».proof.Proof.Gen.ReferenceIdeal.Read
import proofs.«124004_j23862838297387_1_alg».proof.Proof.Spec

/-
  The reference program computes the specification.

  Read one operation at a time at an index, the reference's result at row `r`, column `j` is the sum over `k` of the
  selected entry (zero where the mask is set, the matrix entry elsewhere) times the projection `(∑ l, x(k, l) · W(j, l)) + b(j)`,
  which is the specification's `out`.
-/

noncomputable section

namespace Cert.RefSpec

open Idealize.ShloMosaic Idealize.ShloMosaic.ValueIdx Cert.ReferenceIdeal Cert.ReferenceIdeal.Read
open scoped BigOperators

theorem ref_eq (x0 : FVec Ideal Cert.ReferenceIdeal.S8192x256 .f32) (x1 : FVec Ideal Cert.ReferenceIdeal.S8192x8192 .f32)
    (x2 : IVec Cert.ReferenceIdeal.S8192x8192 1) (x3 : FVec Ideal Cert.ReferenceIdeal.S128x256 .f32)
    (x4 : FVec Ideal Cert.ReferenceIdeal.S128 .f32) :
    Cert.ReferenceIdeal.Read.val_main_v6 (F := Ideal) x0 x1 x2 x3 x4 = Cert.Spec.G x0 x1 x2 x3 x4 := by
  funext i
  obtain ⟨r, j, rfl⟩ : ∃ (r : Fin 8192) (j : Fin 128), i = ix2 r j := ⟨i 0, i 1, eq_ix2 i⟩
  rw [val_main_v6_apply, Cert.Spec.G_apply]
  unfold Cert.Spec.out
  refine Finset.sum_congr rfl fun k _ => ?_
  have hl : lidx_main_v6 (ix2 r j) k = ix2 r k :=
    funext fun a => Fin.ext (by match a with | ⟨0, _⟩ => rfl | ⟨1, _⟩ => rfl)
  have hr : ridx_main_v6 (ix2 r j) k = ix2 k j :=
    funext fun a => Fin.ext (by match a with | ⟨0, _⟩ => rfl | ⟨1, _⟩ => rfl)
  rw [hl, hr, val_main_v0_apply, val_main_call0_v1_apply, val_main_call0_v0_apply, val_main_cst_apply,
    val_main_v5_apply, val_main_v2_apply, val_main_v4_apply, val_main_v3_apply]
  unfold Cert.Spec.masked Cert.Spec.proj
  have hz : (FloatOps.ofBits FTy.f32 0x00000000#32 : Ideal .f32) = (0 : EReal) := Ideal.ofBits_zero_f32
  have hb : idx_main_v3 (idx_main_v4 (ix2 k j)) = ix1 j :=
    funext fun a => Fin.ext (by match a with | ⟨0, _⟩ => rfl)
  rw [hz, hb]
  refine congrArg (fun t => _ * (t + x4 (ix1 j))) (Finset.sum_congr rfl fun l _ => ?_)
  have hl2 : lidx_main_v2 (ix2 k j) l = ix2 k l :=
    funext fun a => Fin.ext (by match a with | ⟨0, _⟩ => rfl | ⟨1, _⟩ => rfl)
  have hr2 : idx_main_v1 (ridx_main_v2 (ix2 k j) l) = ix2 j l :=
    funext fun a => Fin.ext (by match a with | ⟨0, _⟩ => rfl | ⟨1, _⟩ => rfl)
  rw [val_main_v1_apply, hl2, hr2]

end Cert.RefSpec

end
-- ==== Proof.lean ====
/-
  The certificate's claims.

  The program: `h = x Wᵀ + b` by one pipelined kernel (row blocks of `x`), then `out = masked(A) · h` by a second
  pipelined kernel that walks a 4 × 8 grid of (row tile, reduction tile), accumulating each row tile's partial products
  in a scratch buffer that it resets at the first reduction tile and copies out at the last. The reference is the plain
  `where(mask, 0, A) @ (x @ Wᵀ + b)`.

  Frames: each kernel program's run is assembled from its two regions' per-point obligations (the first region's body is
  one case; the second's has three cases by the reduction tile, its invariant carrying the accumulator's contents from
  point to point); the reference's frame is its run with the result dropped. The idealization rewrote nothing. At the
  ideal instance the second region's accumulator after the last reduction tile is the sum of `masked(r, q) · h(q, j)`
  over all columns `q`, tile by tile — a finite sum on the extended reals split into eight consecutive ranges, which
  needs only that addition is associative and commutative — and the first region's output is `h`; the reference's two
  `dot_general`s are the same sums.
-/
import proofs.«124004_j23862838297387_1_alg».proof.Defs
import proofs.«124004_j23862838297387_1_alg».proof.Proof.Gen.Kernel
import proofs.«124004_j23862838297387_1_alg».proof.Proof.Gen.KernelIdeal
import proofs.«124004_j23862838297387_1_alg».proof.Proof.Gen.ReferenceIdeal
import proofs.«124004_j23862838297387_1_alg».proof.Proof.Gen.Pre_finite_inputs
import proofs.«124004_j23862838297387_1_alg».proof.Proof.Gen.ReferenceIdeal.Run
import proofs.«124004_j23862838297387_1_alg».proof.Proof.K.Run
import proofs.«124004_j23862838297387_1_alg».proof.Proof.KI.Value
import proofs.«124004_j23862838297387_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel program's result array ends at the specification of its argument arrays, and the
    reference's at the same specification of arguments that agree. -/
theorem algebraic : Cert.algebraic_KernelIdeal_ReferenceIdeal := by
  intro m ρ m' ρ' _ hagree
  refine ⟨_, Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefSpec.ref_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
